-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S4096x4096 : Shape := ⟨2, ![4096, 4096]⟩
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S16777216, .f32⟩
  | .local _ .vmem, ⟨0, _⟩ => ⟨S2048x512, .f32⟩
  | .local _ .vmem, ⟨1, _⟩ => ⟨S2048x512, .f32⟩
  | .local _ .vmem, ⟨2, _⟩ => ⟨S512x2048, .f32⟩
  | .local _ .vmem, ⟨3, _⟩ => ⟨S512x2048, .f32⟩
  | .local _ .vmem, ⟨4, _⟩ => ⟨S2048x2048, .f32⟩
  | .local _ .vmem, ⟨5, _⟩ => ⟨S2048x2048, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S16777216_S4096x4096 : S16777216.ShapeCasts S4096x4096
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S2048x2048_S2048x2048 : S2048x2048.ShapeCasts S2048x2048
  shapeCasts_S4096x4096_S16777216 : S4096x4096.ShapeCasts S16777216
  dot_S2048x512_S512x2048_S2048x2048_1_0_0_1_n_n_wf : DotDims.WF S2048x512 S512x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S4096x4096.size a
  hwx0_2 : ∀ i : grid0.Coords, EltTy.bits .f32 = 32 ∨ (Rect.block (s := S4096x4096) S2048x2048.size (cc0_transform_2 i) (hinb0_2 i)).WholeWords (EltTy.packing .f32)

variable [Facts₀]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216 : Shape := ⟨1, ![16777216]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  shapeCasts_S16777216_S4096x4096 : S16777216.ShapeCasts S4096x4096
  shapeCasts_S4096x4096_S16777216 : S4096x4096.ShapeCasts S16777216
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibDotSum.lean ====
/-
  A matrix product's sum over the contraction index, re-indexed over the contracted extent: for the plain dimension numbers
  (left operand contracted on its columns, right operand on its rows, no batch axes) the sum over the one-axis contraction
  shape of the operands' products at the dot's operand indices is the sum over `kk : Fin K` of the left operand at
  (row of the output index, `kk`) times the right operand at (`kk`, column of the output index).
-/
import Idealize.ShloMosaic.Lib.ValueIdx
import Idealize.ShloMosaic.PureOps.Ideal.Laws

namespace Cert.Lib.DotSum

open Idealize.ShloMosaic Idealize.ShloMosaic.ValueIdx

variable {M K N : Nat} (d : DotDims ⟨2, ![M, K]⟩ ⟨2, ![K, N]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand down the
    output's column. -/
theorem dot_sum (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

end Cert.Lib.DotSum
-- ==== Proof.Payload.lean ====
/-
  What the kernel body stores, read at one entry of the 2048 × 2048 output tile, over the extended reals.

  The reset (first contraction step of a tile) stores the zero tile.  Every step then stores, at entry (p, q),
  the tile's running contents there plus  ∑_{kk < 512} a(p, kk) · b(kk, q)  of the step's two input blocks
  a : [2048, 512] and b : [512, 2048]: the narrowing of both blocks to a 16-bit float format is the identity on
  extended reals, and the matrix unit's product into a zero accumulator is the plain contraction sum.
-/
import proofs.«106449_j41583873359887_2_alg».proof.Proof.Gen.KernelIdeal.Skeleton
import proofs.«106449_j41583873359887_2_alg».proof.Proof.LibDotSum
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen

/-- The block product into a zero accumulator, at entry `i`: the contraction sum over the block's 512 positions. -/
theorem blockProduct_apply (a : FVec Ideal S2048x512 .bf16) (b : FVec Ideal S512x2048 .bf16) (i : S2048x2048.Idx) :
    matmul dot_S2048x512_S512x2048_S2048x2048_1_0_0_1_n_n none a b (constant S2048x2048 .f32 0x00000000#32) i
      = ∑ kk : Fin 512, a (ix2 (i 0) kk) * b (ix2 kk (i 1)) :=
  (Ideal.matmul_constant_zero_apply dot_S2048x512_S512x2048_S2048x2048_1_0_0_1_n_n none a b i).trans
    (Cert.Lib.DotSum.dot_sum dot_S2048x512_S512x2048_S2048x2048_1_0_0_1_n_n rfl rfl rfl rfl rfl rfl a b i)

/-- The reset's stored value: zero at every entry. -/
theorem reset_apply (i : S2048x2048.Idx) : k0_pay1 (F := Ideal) i = 0 := by
  show Ideal.ofBits .f32 0x00000000#32 = 0
  exact Ideal.ofBits_zero_f32

/-- The step's stored value at entry `i`: the running contents there plus the block product's entry. -/
theorem step_apply (a : Vec Ideal S2048x512 .f32) (b : Vec Ideal S512x2048 .f32) (acc : Vec Ideal S2048x2048 .f32)
    (i : S2048x2048.Idx) :
    k0_pay2 (F := Ideal) a b acc i = acc i + ∑ kk : Fin 512, a (ix2 (i 0) kk) * b (ix2 kk (i 1)) := by
  unfold k0_pay2
  refine congrArg₂ (· + ·) (congrFun (shapeCast_self acc _) i) ?_
  refine (blockProduct_apply _ _ i).trans ?_
  refine Finset.sum_congr rfl fun kk _ => ?_
  exact congrArg₂ (· * ·) (congrFun (shapeCast_self a _) _) (congrFun (shapeCast_self b _) _)

/-- The same at explicit coordinates (p, q) of the tile. -/
theorem step_at (a : Vec Ideal S2048x512 .f32) (b : Vec Ideal S512x2048 .f32) (acc : Vec Ideal S2048x2048 .f32)
    (p q : Fin 2048) :
    k0_pay2 (F := Ideal) a b acc (ix2 p q) = acc (ix2 p q) + ∑ kk : Fin 512, a (ix2 p kk) * b (ix2 kk q) :=
  step_apply a b acc (ix2 p q)

end Cert.KernelIdeal.Pay

end
-- ==== Proof.Cases.lean ====
/-
  What one run of the kernel body leaves in the output tile's staging buffer, in each of its two cases.

  At the first contraction step of a tile the body stores the zero tile, reads it back and stores the step's value
  over it: the buffer ends at the step's value computed from the zero tile.  At every other step the body reads
  the buffer's running contents and stores the step's value computed from them.  In both cases the last store
  covers the whole tile, so the buffer's contents are exactly that stored value, whatever the buffer held before.
-/
import proofs.«106449_j41583873359887_2_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem
open Cert.KernelIdeal Cert.KernelIdeal.Gen

variable {F : FTy → Type} [FloatOps F]

theorem origin : (![0, 0] : Fin 2 → Nat) = fun _ => 0 := funext fun a => by fin_cases a <;> rfl

/-- A later step: the buffer, holding `acc`, is left at the step's value of the two input blocks and `acc`. -/
theorem later_step (c : Dev nD) (i : grid0.Coords) (a3 : Memref sig .tc .vmem S2048x512 .f32) (h3 : a3.IsWhole)
    (a4 : Memref sig .tc .vmem S512x2048 .f32) (h4 : a4.IsWhole) (a5 : Memref sig .tc .vmem S2048x2048 .f32) (h5 : a5.IsWhole)
    (hc : ¬cond0_0 i) (x0 : Vec F S2048x512 .f32) (x1 : Vec F S512x2048 .f32) (acc : Vec F S2048x2048 .f32) :
    out0_B_2 c i a3 h3 a4 h4 a5 h5 hc x0 x1 acc = k0_pay2 x0 x1 acc := by
  unfold out0_B_2
  rw [View.read_writes_eq_canon _ _ _ (cover0_B_2 c i a3 h3 a4 h4 a5 h5 hc x0 x1 acc)]
  unfold kernelRun0_B
  dsimp only
  rw [View.canon_unit_zero origin]
  simp only [View.readAt_eq_ld, h3.read_unread, h4.read_unread, h5.read_unread,
    View.ld_unit_zero (S := S2048x512) origin, View.ld_unit_zero (S := S512x2048) origin,
    View.ld_unit_zero (S := S2048x2048) origin]

/-- The first step: the buffer is left at the step's value of the two input blocks and the zero tile. -/
theorem first_step (c : Dev nD) (i : grid0.Coords) (a3 : Memref sig .tc .vmem S2048x512 .f32) (h3 : a3.IsWhole)
    (a4 : Memref sig .tc .vmem S512x2048 .f32) (h4 : a4.IsWhole) (a5 : Memref sig .tc .vmem S2048x2048 .f32) (h5 : a5.IsWhole)
    (hc : cond0_0 i) (x0 : Vec F S2048x512 .f32) (x1 : Vec F S512x2048 .f32) :
    out0_A_2 c i a3 h3 a4 h4 a5 h5 hc x0 x1 = k0_pay2 x0 x1 (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S2048x2048) origin, View.readCov_unit_zero (S := S2048x2048) _ origin]
  simp only [View.readAt_eq_ld, h3.read_unread, h4.read_unread,
    View.ld_unit_zero (S := S2048x512) origin, View.ld_unit_zero (S := S512x2048) origin,
    View.ld_unit_zero (S := S2048x2048) origin]

end Cert.KernelIdeal.Cases

end
-- ==== Proof.BlockSum.lean ====
/-
  A sum over a contraction axis of extent 4096, cut into 8 consecutive blocks of 512.

  In any additive commutative monoid — the extended reals among them, where `+∞ + -∞` is defined and
  addition stays associative and commutative — the sum of `f k` over `k < 8 * 512` is the sum over the
  blocks `b < 8` of the sums over the offsets `q < 512` of `f (512 * b + q)`.  Nothing here needs a term to
  be finite: only the order and grouping of the summands change.
-/
import Mathlib.Algebra.BigOperators.Fin
import Mathlib.Logic.Equiv.Fin.Basic

namespace BlockSum

open Finset

/-- A sum over `Fin (a * b)` is the sum over the `a` blocks of the sums over the `b` offsets inside a block,
    the entry at block `p`, offset `q` being the one at `q + b * p`. -/
theorem sum_blocks {M : Type*} [AddCommMonoid M] (a b : ℕ) (f : Fin (a * b) → M) :
    ∑ k : Fin (a * b), f k = ∑ p : Fin a, ∑ q : Fin b, f (finProdFinEquiv (p, q)) := by
  rw [← Fintype.sum_prod_type' (f := fun p q => f (finProdFinEquiv (p, q)))]
  exact (Equiv.sum_comp finProdFinEquiv f).symm

end BlockSum
-- ==== Proof.Spec.lean ====
/-
  The matrix product of two [4096, 4096] arrays over the extended reals, entry by entry, and the same entry as a sum
  of partial products over consecutive blocks of the contraction axis.

  Entry (r, c) of the product is  ∑ₖ A(r, k) · B(k, c)  over k < 4096.  A tile of 2048 × 2048 entries is computed
  in eight steps: step b adds  ∑_{kk < 512} A(r, 512·b + kk) · B(512·b + kk, c).  After n steps the entry holds the
  sum of the first n block sums (`part`), and after all eight it holds the whole contraction sum (`part_eight`):
  the blocks [512·b, 512·b + 512), b < 8, partition [0, 4096), and a finite sum in a commutative monoid does not
  depend on how its terms are grouped.  No entry needs to be finite.
-/
import Idealize.ShloMosaic.Lib.ValueIdx
import Idealize.ShloMosaic.PureOps.Ideal
import proofs.«106449_j41583873359887_2_alg».proof.Proof.BlockSum

noncomputable section

namespace MatProd

open Idealize.ShloMosaic Idealize.ShloMosaic.ValueIdx

/-- The shape of both factors and of the product. -/
abbrev Sq : Shape := ⟨2, ![4096, 4096]⟩

/-- Row (or column) `p` of tile number `ti` along an axis cut into tiles of 2048. -/
def tileIx (ti : ℕ) (p : Fin 2048) : Fin 4096 := ⟨(2048 * ti + p.val) % 4096, Nat.mod_lt _ (by norm_num)⟩

/-- Position `kk` of block number `b` along the contraction axis cut into blocks of 512. -/
def blkIx (b : ℕ) (kk : Fin 512) : Fin 4096 := ⟨(512 * b + kk.val) % 4096, Nat.mod_lt _ (by norm_num)⟩

/-- Entry (r, c) of the product: the contraction sum. -/
def prodAt (A B : Sq.Idx → EReal) (r c : Fin 4096) : EReal := ∑ k : Fin 4096, A (ix2 r k) * B (ix2 k c)

/-- The product, as an array. -/
def prod (A B : Sq.Idx → EReal) : Sq.Idx → EReal := fun i => prodAt A B (i 0) (i 1)

/-- The contribution of contraction block `b` to entry (p, q) of tile (ti, tj). -/
def blockTerm (A B : Sq.Idx → EReal) (ti tj : ℕ) (b : ℕ) (p q : Fin 2048) : EReal :=
  ∑ kk : Fin 512, A (ix2 (tileIx ti p) (blkIx b kk)) * B (ix2 (blkIx b kk) (tileIx tj q))

/-- Entry (p, q) of tile (ti, tj) after the first `n` contraction blocks. -/
def part (A B : Sq.Idx → EReal) (ti tj : ℕ) (n : ℕ) (p q : Fin 2048) : EReal :=
  ∑ b ∈ Finset.range n, blockTerm A B ti tj b p q

theorem part_succ (A B : Sq.Idx → EReal) (ti tj n : ℕ) (p q : Fin 2048) :
    part A B ti tj (n + 1) p q = part A B ti tj n p q + blockTerm A B ti tj n p q :=
  Finset.sum_range_succ _ _

theorem part_one (A B : Sq.Idx → EReal) (ti tj : ℕ) (p q : Fin 2048) :
    part A B ti tj 1 p q = blockTerm A B ti tj 0 p q :=
  Finset.sum_range_one _

/-- Position `q` of block `p` is position `q + 512·p` of the axis. -/
theorem blkIx_val (p : Fin 8) (q : Fin 512) : (blkIx p.val q).val = (finProdFinEquiv (p, q)).val := by
  show (512 * p.val + q.val) % 4096 = (finProdFinEquiv (p, q)).val
  rw [finProdFinEquiv_apply_val]
  show (512 * p.val + q.val) % 4096 = q.val + 512 * p.val
  have hp := p.isLt
  have hq := q.isLt
  omega

/-- After all eight blocks the entry is the whole contraction sum. -/
theorem part_eight (A B : Sq.Idx → EReal) (ti tj : ℕ) (p q : Fin 2048) :
    part A B ti tj 8 p q = prodAt A B (tileIx ti p) (tileIx tj q) := by
  unfold part prodAt blockTerm
  rw [Finset.sum_range]
  have h := BlockSum.sum_blocks 8 512
    (fun k : Fin (8 * 512) => A (ix2 (tileIx ti p) (k : Fin 4096)) * B (ix2 (k : Fin 4096) (tileIx tj q)))
  refine Eq.trans ?_ h.symm
  refine Finset.sum_congr rfl fun b _ => Finset.sum_congr rfl fun kk _ => ?_
  have e : blkIx b.val kk = (finProdFinEquiv (b, kk) : Fin 4096) := Fin.ext (blkIx_val b kk)
  rw [e]

/-- The shape of the flat arguments and of the flat result. -/
abbrev Flat : Shape := ⟨1, ![16777216]⟩

/-- THE RESULT both programs compute, as one function of the two flat arguments `x0` and `x1`: re-lay each as a
    [4096, 4096] array (`x1` the left factor, `x0` the right one), take the product, re-lay it flat. -/
def flatProduct (h1 : Flat.ShapeCasts Sq) (h2 : Sq.ShapeCasts Flat) (x0 x1 : Flat.Idx → EReal) : Flat.Idx → EReal :=
  shapeCast Flat (prod (shapeCast Sq x1 h1) (shapeCast Sq x0 h1)) h2

end MatProd

end
-- ==== Proof.Tiles.lean ====
/-
  The running contents of an output tile across the grid, over the extended reals.

  The grid has 32 points, numbered  t = 16·i + 8·j + k  with i, j < 2 the tile's row and column and k < 8 the
  contraction step.  At point t the left input block is rows [2048·i, 2048·i + 2048), columns [512·k, 512·k + 512)
  of the left array, the right input block rows [512·k, 512·k + 512), columns [2048·j, 2048·j + 2048) of the right
  array, and the output tile is tile (i, j).  Steps k = 0 … 7 of one tile are consecutive points, the tile's
  staging buffer is kept between them, and the first of them resets it.  So after point t the buffer holds, at
  entry (p, q), the sum of the first k + 1 block contributions to entry (2048·i + p, 2048·j + q) of the product:
  by induction on the point — the reset gives the first contribution alone (0 + x = x), every later step adds the next.
-/
import proofs.«106449_j41583873359887_2_alg».proof.Proof.Payload
import proofs.«106449_j41583873359887_2_alg».proof.Proof.Cases
import proofs.«106449_j41583873359887_2_alg».proof.Proof.Spec

noncomputable section

namespace Cert.KernelIdeal.Tiles

open Idealize.ShloMosaic Idealize.ShloMosaic.TcCoe Idealize.ShloMosaic.ValueIdx Idealize.SL.Sem
open Cert.KernelIdeal Cert.KernelIdeal.Gen Cert.KernelIdeal.Pay Cert.KernelIdeal.Cases MatProd

variable (m : (ℓ : Loc nD τ sig) → Buf (Elt Ideal) ℓ)

/-- The left factor as the region finds it, -/
abbrev lft (c : Dev nD) : Sq.Idx → EReal := V m c main_v0
/-- and the right one. -/
abbrev rgt (c : Dev nD) : Sq.Idx → EReal := V m c main_v1

/-- The left input block at point `t`, as a [2048, 512] array, -/
abbrev lblk (c : Dev nD) (t : Fin cfg0.N) : Vec Ideal S2048x512 .f32 := iblk m c 0 t
/-- and the right one, as a [512, 2048] array. -/
abbrev rblk (c : Dev nD) (t : Fin cfg0.N) : Vec Ideal S512x2048 .f32 := iblk m c 1 t

/-- The block indices of the three windows at point `t = 16·i + 8·j + k`: (i, k), (k, j) and (i, j). -/
theorem index_facts : ∀ t : Fin cfg0.N,
    win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = t.val / 16 ∧ win0_2.index t (1 : Fin 2) = t.val / 8 % 2 :=
  (by decide +kernel : ∀ t : Fin grid0.N, _)

/-- The left input block at point `t`, entry (p, kk): the left array at row `p` of tile row `t / 16`, position `kk` of
    contraction block `t % 8`. -/
theorem left_block (c : Dev nD) (t : Fin cfg0.N) (p : Fin 2048) (kk : Fin 512) :
    lblk m c t (ix2 p kk) = lft m c (ix2 (tileIx (t.val / 16) p) (blkIx (t.val % 8) kk)) := by
  have hN : t.val < 32 := lt_of_lt_of_eq t.isLt (show cfg0.N = 32 from N_0)
  obtain ⟨e0, e1, -⟩ := index_facts t
  unfold lblk iblk
  rw [View.read_apply]
  show V m c main_v0 _ = V m c main_v0 _
  refine congrArg (V m c main_v0) ?_
  funext a
  apply Fin.ext
  match a with
  | ⟨0, _⟩ =>
    show win0_0.index t (0 : Fin 2) * 2048 + 1 * p.val = (2048 * (t.val / 16) + p.val) % 4096
    have hp := p.isLt
    omega
  | ⟨1, _⟩ =>
    show win0_0.index t (1 : Fin 2) * 512 + 1 * kk.val = (512 * (t.val % 8) + kk.val) % 4096
    have hk := kk.isLt
    omega

/-- The right input block at point `t`, entry (kk, q): the right array at position `kk` of contraction block `t % 8`,
    column `q` of tile column `t / 8 % 2`. -/
theorem right_block (c : Dev nD) (t : Fin cfg0.N) (kk : Fin 512) (q : Fin 2048) :
    rblk m c t (ix2 kk q) = rgt m c (ix2 (blkIx (t.val % 8) kk) (tileIx (t.val / 8 % 2) q)) := by
  have hN : t.val < 32 := lt_of_lt_of_eq t.isLt (show cfg0.N = 32 from N_0)
  obtain ⟨-, -, e2, e3, -⟩ := index_facts t
  unfold rblk iblk
  rw [View.read_apply]
  show V m c main_v1 _ = V m c main_v1 _
  refine congrArg (V m c main_v1) ?_
  funext a
  apply Fin.ext
  match a with
  | ⟨0, _⟩ =>
    show win0_1.index t (0 : Fin 2) * 512 + 1 * kk.val = (512 * (t.val % 8) + kk.val) % 4096
    have hk := kk.isLt
    omega
  | ⟨1, _⟩ =>
    show win0_1.index t (1 : Fin 2) * 2048 + 1 * q.val = (2048 * (t.val / 8 % 2) + q.val) % 4096
    have hq := q.isLt
    omega

/-- The product of the two input blocks of point `t`, entry (p, q): contraction block `t % 8`'s contribution to
    the tile's entry. -/
theorem point_term (c : Dev nD) (t : Fin cfg0.N) (p q : Fin 2048) :
    (∑ kk : Fin 512, lblk m c t (ix2 p kk) * rblk m c t (ix2 kk q))
      = blockTerm (lft m c) (rgt m c) (t.val / 16) (t.val / 8 % 2) (t.val % 8) p q :=
  Finset.sum_congr rfl fun kk _ => congrArg₂ (· * ·) (left_block m c t p kk) (right_block m c t kk q)

/-- At the first step of a tile the buffer is left at that step's contribution alone. -/
theorem first_value (c : Dev nD) (t : Fin cfg0.N) (h0 : t.val % 8 = 0) (p q : Fin 2048) :
    outsAt0 m c t.val t.isLt (ix2 p q) = blockTerm (lft m c) (rgt m c) (t.val / 16) (t.val / 8 % 2) (t.val % 8) p q := by
  have e1 := outsAt0_A m c t h0
  have e2 := first_step (F := Ideal) c (grid0.coords t) (ms0_0 t) (hs0_0 t) (ms0_1 t) (hs0_1 t) (ms0_2 t) (hs0_2 t)
    ((hcond0_0 t).mpr h0) (iblk m c 0 t) (iblk m c 1 t)
  refine (congrFun (e1.trans e2) (ix2 p q)).trans ?_
  refine (step_at (lblk m c t) (rblk m c t) (k0_pay1 (F := Ideal)) p q).trans ?_
  rw [reset_apply, zero_add]
  exact point_term m c t p q

/-- At a later step the buffer is left at what the point before left plus that step's contribution. -/
theorem later_value (c : Dev nD) (t : Fin cfg0.N) (h0 : ¬t.val % 8 = 0) (p q : Fin 2048) :
    outsAt0 m c t.val t.isLt (ix2 p q)
      = outsAt0 m c (t.val - 1) (Nat.lt_of_le_of_lt (Nat.sub_le _ _) t.isLt) (ix2 p q)
        + blockTerm (lft m c) (rgt m c) (t.val / 16) (t.val / 8 % 2) (t.val % 8) p q := by
  have e1 := outsAt0_B m c t h0
  have e2 := later_step (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))
  refine (congrFun (e1.trans e2) (ix2 p q)).trans ?_
  refine (step_at (lblk m c t) (rblk m c t) _ p q).trans ?_
  exact congrArg (_ + ·) (point_term m c t p q)

/-- THE RUNNING SUM: after point `n` the tile's buffer holds, at (p, q), the first `n % 8 + 1` block contributions. -/
theorem running_sum (c : Dev nD) : ∀ (n : ℕ) (h : n < cfg0.N) (p q : Fin 2048),
    outsAt0 m c n h (ix2 p q) = part (lft m c) (rgt m c) (n / 16) (n / 8 % 2) (n % 8 + 1) p q
  | 0, h, p, q => (first_value m c ⟨0, h⟩ rfl p q).trans (part_one _ _ _ _ p q).symm
  | n + 1, h, p, q => by
    have hN : n + 1 < 32 := lt_of_lt_of_eq h (show cfg0.N = 32 from N_0)
    by_cases h0 : (n + 1) % 8 = 0
    · refine (first_value m c ⟨n + 1, h⟩ h0 p q).trans ?_
      show blockTerm _ _ ((n + 1) / 16) ((n + 1) / 8 % 2) ((n + 1) % 8) p q = _
      rw [h0]
      exact (part_one _ _ _ _ p q).symm
    · refine (later_value m c ⟨n + 1, h⟩ h0 p q).trans ?_
      show outsAt0 m c n _ (ix2 p q) + blockTerm _ _ ((n + 1) / 16) ((n + 1) / 8 % 2) ((n + 1) % 8) p q = _
      rw [running_sum c n _ p q]
      have e1 : (n + 1) / 16 = n / 16 := by omega
      have e2 : (n + 1) / 8 % 2 = n / 8 % 2 := by omega
      have e3 : (n + 1) % 8 = n % 8 + 1 := by omega
      rw [e1, e2, e3]
      exact (part_succ _ _ _ _ _ p q).symm

end Cert.KernelIdeal.Tiles

end
-- ==== Proof.HostSide.lean ====
/-
  The host operations around the region.

  Before the region the program re-lays its two flat arguments of 4096 · 4096 entries as [4096, 4096] arrays: the
  second argument becomes the left factor, the first the right factor.  After the region it re-lays the product
  array back into a flat result.  A re-laying keeps the row-major position of every entry.
-/
import proofs.«106449_j41583873359887_2_alg».proof.Proof.Gen.KernelIdeal.Frame
import Idealize.ShloMosaic.Lib.Pipeline.Value
import Idealize.ShloMosaic.Lib.StableHlo.Run

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The left factor the region finds: the second argument, re-laid. -/
theorem left_array (c : Dev nD) :
    (V m c main_v0 : S4096x4096.Idx → Elt F .f32)
      = shapeCast S4096x4096 (m ((c : Thread nD τ).loc main_arg1)) shapeCasts_S16777216_S4096x4096 := by
  show StableHlo.after hostOps0 (fun b => m (c, b)) (Proc.devRef .tc main_v0) = _
  after_results
  rfl

/-- The right factor the region finds: the first argument, re-laid. -/
theorem right_array (c : Dev nD) :
    (V m c main_v1 : S4096x4096.Idx → Elt F .f32)
      = shapeCast S4096x4096 (m ((c : Thread nD τ).loc main_arg0)) shapeCasts_S16777216_S4096x4096 := by
  show StableHlo.after hostOps0 (fun b => m (c, b)) (Proc.devRef .tc main_v1) = _
  after_results
  rfl

/-- The result buffer after the last host operation: the region's output array, re-laid flat. -/
theorem result_buffer (c : Dev nD) :
    Pipeline.afterTail₀ cfgs (dats m) 0 (V0 m) [hostOps1] c main_v3
      = shapeCast S16777216 ((dats m 0 c).arrAt 2 cfg0.N) shapeCasts_S4096x4096_S16777216 := by
  unfold Pipeline.afterTail₀
  show StableHlo.after hostOps1 _ (Proc.devRef .tc main_v3) = _
  after_results
  rw [Pipeline.withArrays_arr spec0 launch0.win.arr_inj c _ _ 2]
  rfl

end Cert.KernelIdeal.HostSide

end
-- ==== Proof.Whole.lean ====
/-
  From the tiles to the whole product array, and the kernel program's run read as a value.

  A tile's staging buffer is written back to the output array after the tile's last contraction step only
  (points t with t % 8 = 7), when it holds all eight block contributions: every entry of the tile is then the whole
  contraction sum, the product's entry.  The four tiles (i, j), i, j < 2, partition the [4096, 4096] array — entry
  (r, s) lies in tile (r / 2048, s / 2048), written back at point 16·(r / 2048) + 8·(s / 2048) + 7 — so after the
  region the output array is the product of the two factor arrays the region found.  The host re-lays the two flat
  arguments into those factors before the region and the product into the flat result after it.
-/
import proofs.«106449_j41583873359887_2_alg».proof.Proof.Tiles
import proofs.«106449_j41583873359887_2_alg».proof.Proof.HostSide

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tiles Cert.KernelIdeal.HostSide MatProd

variable (m : (ℓ : Loc nD τ sig) → Buf (Elt Ideal) ℓ) (ρ : Dev nD → PrngReg)

/-- The product of the two factor arrays the region finds, as contents of the output array. -/
abbrev product (c : Dev nD) : Buf (Elt Ideal) ((c : Thread nD τ).loc main_v2) := prod (lft m c) (rgt m c)

/-- After a tile's last step, entry (p, q) of its buffer is the product's entry at the tile's row and column. -/
theorem tile_entry (c : Dev nD) (t : Fin cfg0.N) (h7 : t.val % 8 = 7) (p q : Fin 2048) :
    outsAt0 m c t.val t.isLt (ix2 p q)
      = prodAt (lft m c) (rgt m c) (tileIx (t.val / 16) p) (tileIx (t.val / 8 % 2) q) := by
  refine (running_sum m c t.val t.isLt p q).trans ?_
  rw [show t.val % 8 + 1 = 8 from by omega]
  exact part_eight _ _ _ _ p q

/-- What a write-back writes is the product read through the tile's block of the output array. -/
theorem flushed_eq (c : Dev nD) (t : Fin cfg0.N) (hf : (cfg0.win 2).flush t = true) :
    (dats m 0 c).flushed 2 t = ((cfg0.win 2).blk t).view.read (Elt Ideal) (product m c) := by
  have hN : t.val < 32 := lt_of_lt_of_eq t.isLt (show cfg0.N = 32 from N_0)
  have h7 : t.val % 8 = 7 := (flush0_2 t).mp hf
  obtain ⟨-, -, -, -, e4, e5⟩ := index_facts t
  show (cfg0.win 2).cut (grid0.coords t) ((dats m 0 c).after 2 t) = _
  rw [after0_2]
  funext j
  obtain ⟨p, q, rfl⟩ : ∃ (p q : Fin 2048), j = ix2 p q := ⟨j 0, j 1, eq_ix2 j⟩
  rw [View.read_apply]
  show outsAt0 m c t.val t.isLt (ix2 p q) = prod (lft m c) (rgt m c) (((cfg0.win 2).blk t).view.emb (ix2 p q))
  refine (tile_entry m c t h7 p q).trans ?_
  unfold prod
  refine congrArg₂ (prodAt (lft m c) (rgt m c)) (Fin.ext ?_) (Fin.ext ?_)
  · show (2048 * (t.val / 16) + p.val) % 4096 = win0_2.index t (0 : Fin 2) * 2048 + 1 * p.val
    have hp := p.isLt
    omega
  · show (2048 * (t.val / 8 % 2) + q.val) % 4096 = win0_2.index t (1 : Fin 2) * 2048 + 1 * q.val
    have hq := q.isLt
    omega

/-- Every entry of the output array lies in the block of some point that writes back. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ : ∃ t : Fin cfg0.N, t.val = 16 * ((i 0).val / 2048) + 8 * ((i 1).val / 2048) + 7 :=
    ⟨⟨16 * ((i 0).val / 2048) + 8 * ((i 1).val / 2048) + 7, by rw [show cfg0.N = 32 from N_0]; omega⟩, rfl⟩
  obtain ⟨-, -, -, -, e4, e5⟩ := index_facts t
  refine ⟨t, (flush0_2 t).mpr (by omega), ?_⟩
  show i ∈ ((View.whole main_v2).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 2048 ≤ (i 1).val ∧ (i 1).val < win0_2.index t (1 : Fin 2) * 2048 + 2048
    omega

/-- THE OUTPUT ARRAY after the region: the product of the two factor arrays. -/
theorem final (c : Dev nD) : (dats m 0 c).arrAt 2 cfg0.N = product m c :=
  (dats m 0 c).arrAt_eq_of_cover 2 (product m c) (flushed_eq m c) (covered c)

/-- The flat result in terms of the flat arguments. -/
theorem result_eq (c : Dev nD) :
    Pipeline.afterTail₀ cfgs (dats m) 0 (V0 m) [hostOps1] c main_v3
      = flatProduct shapeCasts_S16777216_S4096x4096 shapeCasts_S4096x4096_S16777216
          (m ((c : Thread nD τ).loc main_arg0)) (m ((c : Thread nD τ).loc main_arg1)) := by
  refine (result_buffer m c).trans ?_
  rw [final]
  unfold product flatProduct
  rw [show lft m c = _ from left_array m c, show rgt m c = _ from right_array m c]

/-- THE RUN, READ: every weakly fair execution of the program terminates with the result buffer at the flat product
    of the two arguments and the arguments as launched. -/
theorem run : θ_run defs (onTc (τ := τ) (main (F := Ideal))) ⟨m, fun _ => 0, ρ⟩ fun r => ∀ c : Dev nD,
      r.2.mem ((c.tc : Thread nD τ).loc main_v3)
        = flatProduct shapeCasts_S16777216_S4096x4096 shapeCasts_S4096x4096_S16777216
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.RefSide.lean ====
/-
  The reference program's result as the same function of the two flat arguments.

  The reference re-lays its two flat arguments as [4096, 4096] arrays, takes their matrix product in one host
  operation and re-lays the product flat.  Over the extended reals the host's product at entry (r, s) is the
  contraction sum  ∑ₖ A(r, k) · B(k, s)  over all 4096 positions: the product this certificate's specification names.
-/
import proofs.«106449_j41583873359887_2_alg».proof.Proof.Gen.ReferenceIdeal.Run
import proofs.«106449_j41583873359887_2_alg».proof.Proof.LibDotSum
import proofs.«106449_j41583873359887_2_alg».proof.Proof.Spec
import Idealize.ShloMosaic.PureOps.Ideal.Laws

noncomputable section

namespace Cert.ReferenceIdeal.RefValue

open Idealize.ShloMosaic Idealize.ShloMosaic.ValueIdx Cert.ReferenceIdeal Cert.ReferenceIdeal.Gen MatProd

/-- The host's matrix product of two [4096, 4096] arrays is the product, entry by entry. -/
theorem dot_eq_prod (l r : FVec Ideal S4096x4096 .f32) :
    Host.dotGeneral dot_S4096x4096_S4096x4096_S4096x4096_1_0_0_1_n_n none l r = prod l r := by
  funext i
  simp only [Host.dotGeneral]
  rw [Ideal.dotGeneral_apply]
  exact Cert.Lib.DotSum.dot_sum dot_S4096x4096_S4096x4096_S4096x4096_1_0_0_1_n_n rfl rfl rfl rfl rfl rfl l r i

/-- The reference run's result term is the flat product of the two arguments. -/
theorem result_eq (x0 x1 : FVec Ideal S16777216 .f32) :
    shapeCast S16777216 (Host.dotGeneral dot_S4096x4096_S4096x4096_S4096x4096_1_0_0_1_n_n none
        (shapeCast S4096x4096 x1 shapeCasts_S16777216_S4096x4096) (shapeCast S4096x4096 x0 shapeCasts_S16777216_S4096x4096))
        shapeCasts_S4096x4096_S16777216
      = flatProduct shapeCasts_S16777216_S4096x4096 shapeCasts_S4096x4096_S16777216 x0 x1 := by
  unfold flatProduct
  rw [dot_eq_prod]

end Cert.ReferenceIdeal.RefValue

end
-- ==== Proof.lean ====
/-
  A tiled matrix product against one whole matrix product, over the extended reals.

  Both programs take two flat arrays of 4096 · 4096 numbers, read them row-major as [4096, 4096] matrices (the second
  argument the left factor J, the first the right factor E) and return J · E, flat.  The reference does it in one
  host product.  The kernel computes each of the four 2048 × 2048 tiles of the result in eight grid steps, step k
  adding the product of a [2048, 512] block of J and a [512, 2048] block of E to the tile, the first step starting
  from zero; both blocks are narrowed to a 16-bit float format on the way into the matrix unit.

  Over the extended reals the narrowing is the identity and every sum is exact, so a tile's entry after its eight
  steps is  0 + Σ_{k<8} Σ_{kk<512} J(r, 512·k + kk) · E(512·k + kk, s),  and the reference's entry is
  Σ_{κ<4096} J(r, κ) · E(κ, s):  the same terms, grouped differently.  Addition of extended reals is associative and
  commutative with 0 neutral, so the two are equal whatever the entries are — the inputs' finiteness is not used.

  The kernel program's run, point by point, and the reference's run are generated modules; this directory's own
  modules read the kernel's run as a value (Payload, Cases, Tiles, HostSide, Whole), read the reference's
  (RefSide), and state the law that joins them (BlockSum, Spec).  The ideal pass rewrote nothing, so the kernel
  program's idealization is its own text and there is nothing to preserve.
-/
import proofs.«106449_j41583873359887_2_alg».proof.Defs
import proofs.«106449_j41583873359887_2_alg».proof.Proof.Gen.Kernel
import proofs.«106449_j41583873359887_2_alg».proof.Proof.Gen.Kernel.Skeleton
import proofs.«106449_j41583873359887_2_alg».proof.Proof.Gen.Kernel.Launch
import proofs.«106449_j41583873359887_2_alg».proof.Proof.Gen.Kernel.Points
import proofs.«106449_j41583873359887_2_alg».proof.Proof.Gen.Kernel.Frame
import proofs.«106449_j41583873359887_2_alg».proof.Proof.Gen.KernelIdeal
import proofs.«106449_j41583873359887_2_alg».proof.Proof.Gen.KernelIdeal.Skeleton
import proofs.«106449_j41583873359887_2_alg».proof.Proof.Gen.KernelIdeal.Launch
import proofs.«106449_j41583873359887_2_alg».proof.Proof.Gen.KernelIdeal.Points
import proofs.«106449_j41583873359887_2_alg».proof.Proof.Gen.KernelIdeal.Frame
import proofs.«106449_j41583873359887_2_alg».proof.Proof.Gen.ReferenceIdeal
import proofs.«106449_j41583873359887_2_alg».proof.Proof.Gen.ReferenceIdeal.Run
import proofs.«106449_j41583873359887_2_alg».proof.Proof.Gen.Pre_finite_inputs
import proofs.«106449_j41583873359887_2_alg».proof.Proof.Whole
import proofs.«106449_j41583873359887_2_alg».proof.Proof.RefSide
import Idealize.ShloMosaic.Adequacy
import Idealize.ShloMosaic.Init

noncomputable section

namespace Cert.Proof

open Idealize.ShloMosaic Idealize.SL.Sem

/-- The kernel program runs and leaves its arguments as launched, at the word level -/
theorem frame_kernel : Cert.frame_Kernel := fun m ρ _ => Cert.Kernel.Gen.frame m ρ

/-- and over the extended reals. -/
theorem frame_kernelIdeal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree, both programs end with the flat product of the two arguments in their result. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
